-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part3 {F : FTy → Type} [FloatOps F] (main_arg12 : FVec F S1024x1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg12
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg13
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg8 : FVec F S1024x2048 .f32) (main_arg9 : FVec F S2048 .f32) (main_arg10 : FVec F S2048x1024 .f32) (main_arg11 : FVec F S1024 .f32) (main_arg12 : FVec F S1024x1024 .f32) (main_arg13 : FVec F S1024 .f32) (main_v33 : IVec S_ 1) : IVec S_ 1 :=
  let main_v34 : FVec F S1024x2048 .f32 := Host.absf main_arg8
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x1024 .f32 := Host.absf main_arg10
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_v48 main_v49 main_v50

def fn_part1 {F : FTy → Type} [FloatOps F] (main_arg5 : FVec F S2048 .f32) (main_arg6 : FVec F S1024x1024 .f32) (main_arg7 : FVec F S1024 .f32) (main_arg8 : FVec F S1024x2048 .f32) (main_arg9 : FVec F S2048 .f32) (main_arg10 : FVec F S2048x1024 .f32) (main_arg11 : FVec F S1024 .f32) (main_arg12 : FVec F S1024x1024 .f32) (main_arg13 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S32768x1024 .f32) (main_arg1 : IVec S32768 32) (main_arg2 : FVec F S1024x1024 .f32) (main_arg3 : FVec F S1024 .f32) (main_arg4 : FVec F S1024x2048 .f32) (main_arg5 : FVec F S2048 .f32) (main_arg6 : FVec F S1024x1024 .f32) (main_arg7 : FVec F S1024 .f32) (main_arg8 : FVec F S1024x2048 .f32) (main_arg9 : FVec F S2048 .f32) (main_arg10 : FVec F S2048x1024 .f32) (main_arg11 : FVec F S1024 .f32) (main_arg12 : FVec F S1024x1024 .f32) (main_arg13 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg5 main_arg6 main_arg7 main_arg8 main_arg9 main_arg10 main_arg11 main_arg12 main_arg13 main_v13 main_v16
-- ==== Kernel.lean ====
abbrev S32768x1024 : Shape := ⟨2, ![32768, 1024]⟩
abbrev S32768 : Shape := ⟨1, ![32768]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S32768x1 : Shape := ⟨2, ![32768, 1]⟩
abbrev S1x2048 : Shape := ⟨2, ![1, 2048]⟩
abbrev S1x1024 : Shape := ⟨2, ![1, 1024]⟩
abbrev S512x1024 : Shape := ⟨2, ![512, 1024]⟩
abbrev S512x1 : Shape := ⟨2, ![512, 1]⟩
abbrev S512x2048 : Shape := ⟨2, ![512, 2048]⟩

abbrev nBuf : Space → Nat
  | .hbm => 28
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S32768x1, .i32⟩
  | .hbm, ⟨15, _⟩ => ⟨S1024x2048, .f32⟩
  | .hbm, ⟨16, _⟩ => ⟨S1024x2048, .bf16⟩
  | .hbm, ⟨17, _⟩ => ⟨S2048, .f32⟩
  | .hbm, ⟨18, _⟩ => ⟨S1x2048, .f32⟩
  | .hbm, ⟨19, _⟩ => ⟨S1024x2048, .bf16⟩
  | .hbm, ⟨20, _⟩ => ⟨S1024x2048, .bf16⟩
  | .hbm, ⟨21, _⟩ => ⟨S2048x1024, .bf16⟩
  | .hbm, ⟨22, _⟩ => ⟨S1024x1024, .bf16⟩
  | .hbm, ⟨23, _⟩ => ⟨S1x2048, .f32⟩
  | .hbm, ⟨24, _⟩ => ⟨S1x2048, .f32⟩
  | .hbm, ⟨25, _⟩ => ⟨S1x1024, .f32⟩
  | .hbm, ⟨26, _⟩ => ⟨S1x1024, .f32⟩
  | .hbm, ⟨27, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1024x2048, .bf16⟩
  | .local _ .vmem, ⟨5, _⟩ => ⟨S1x2048, .f32⟩
  | .local _ .vmem, ⟨6, _⟩ => ⟨S1024x2048, .bf16⟩
  | .local _ .vmem, ⟨7, _⟩ => ⟨S1x2048, .f32⟩
  | .local _ .vmem, ⟨8, _⟩ => ⟨S1024x2048, .bf16⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S32768_S32768x1 : S32768.ShapeCasts S32768x1
  concatenates_S1024x1024_S1024x1024_S1024x2048_d1 : Shape.Concatenates [S1024x1024, S1024x1024] S1024x2048 1
  bitsLt_bf16_f32 : FTy.bits .bf16 < FTy.bits .f32
  concatenates_S1024_S1024_S2048_d0 : Shape.Concatenates [S1024, S1024] S2048 0
  shapeCasts_S2048_S1x2048 : S2048.ShapeCasts S1x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  natLt_1_32 : 1 < 32
  broadcasts_S512x1_S512x2048 : S512x1.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S2048x1024.size a
  hwx0_8 : ∀ i : grid0.Coords, EltTy.bits .bf16 = 32 ∨ (Rect.block (s := S2048x1024) S2048x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S32768x1024.size a
  hwx0_12 : ∀ i : grid0.Coords, EltTy.bits .f32 = 32 ∨ (Rect.block (s := S32768x1024) S512x1024.size (cc0_transform_12 i) (hinb0_12 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768 : Shape := ⟨1, ![32768]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1x1024 : Shape := ⟨2, ![1, 1024]⟩
abbrev S_ : Shape := ⟨0, ![]⟩
abbrev S32768x2048 : Shape := ⟨2, ![32768, 2048]⟩
abbrev S1x2048 : Shape := ⟨2, ![1, 2048]⟩
abbrev S32768x1 : Shape := ⟨2, ![32768, 1]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S2048, .f32⟩
  | .hbm, ⟨10, _⟩ => ⟨S2048x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S32768x1, .i1⟩
  | .hbm, ⟨40, _⟩ => ⟨S32768x2048, .i1⟩
  | .hbm, ⟨41, _⟩ => ⟨S32768x2048, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call2_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call3_cst : Ref sig .tc := ⟨.hbm, 46, rfl⟩
abbrev main_call3_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  dot_S32768x1024_S1024x1024_S32768x1024_1_0_0_1_n_n_wf : DotDims.WF S32768x1024 S1024x1024 S32768x1024 [1] [0] [0] [1] [] []
  dot_S32768x1024_S1024x2048_S32768x2048_1_0_0_1_n_n_wf : DotDims.WF S32768x1024 S1024x2048 S32768x2048 [1] [0] [0] [1] [] []
  dot_S32768x2048_S2048x1024_S32768x1024_1_0_0_1_n_n_wf : DotDims.WF S32768x2048 S2048x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf

class Facts : Prop extends Facts₀ where

variable [Facts]
-- ==== Proof.TwoExpert.lean ====
/-
  One row of a two-expert feed-forward network over the extended reals.

  A row `x` (1024 numbers) goes through one of two encoders — each an affine layer to 1024 numbers, a rectifier, an
  affine layer to 2048 numbers — chosen by a one-bit flag, and then through a decoder of the same form back to 1024
  numbers. Two arrangements of this computation are stated and proved equal:

  * `routed`: both encoders are evaluated and the flag SELECTS one of the two encoded rows, entry by entry;
  * `blended`: the two encoders' first layers are fused into ONE affine layer to 2048 numbers whose weight matrix is the
    two first-layer matrices side by side (so the first 1024 hidden numbers are the first encoder's and the last 1024 the
    second's), and the two encoded rows are BLENDED as `w · e₁ + (1 − w) · e₂` with the weight `w` the flag read as a
    number (one or zero).

  The law joining them is `1 · a + (1 − 1) · b = a` and `0 · a + (1 − 0) · b = b`. On the extended reals this holds for
  EVERY `a` and `b`, infinite ones included, because there `0 · b = 0` for every `b`; so no finiteness of the entries is
  used anywhere.
-/
import Idealize.ShloMosaic.PureOps.Ideal
import Idealize.ShloMosaic.Lib.ValueIdx

noncomputable section

namespace Cert.TwoExpert

open Idealize.ShloMosaic

/-- An affine layer on one row: entry `j` of `a · W + b`. -/
def lin {κ ν : Type} [Fintype κ] (a : κ → EReal) (W : κ → ν → EReal) (b : ν → EReal) : ν → EReal :=
  fun j => (∑ k, a k * W k j) + b j

/-- The rectifier on one row: the larger of each entry and zero. -/
def relu {ν : Type} (a : ν → EReal) : ν → EReal := fun j => max (a j) 0

/-- Affine layer, rectifier, affine layer. -/
def mlp {ι κ ν : Type} [Fintype ι] [Fintype κ] (a : ι → EReal) (W₁ : ι → κ → EReal) (b₁ : κ → EReal)
    (W₂ : κ → ν → EReal) (b₂ : ν → EReal) : ν → EReal :=
  lin (relu (lin a W₁ b₁)) W₂ b₂

/-- Position `k` among the first 1024 of 2048. -/
def lo (k : Fin 1024) : Fin 2048 := ⟨k.val, by have := k.isLt; omega⟩
/-- Position `k` among the last 1024 of 2048. -/
def hi (k : Fin 1024) : Fin 2048 := ⟨k.val + 1024, by have := k.isLt; omega⟩

/-- The network with the flag SELECTING between the two encoded rows. -/
def routed (flag : BitVec 1) (x : Fin 1024 → EReal)
    (A₁ : Fin 1024 → Fin 1024 → EReal) (a₁ : Fin 1024 → EReal) (A₂ : Fin 1024 → Fin 2048 → EReal) (a₂ : Fin 2048 → EReal)
    (B₁ : Fin 1024 → Fin 1024 → EReal) (b₁ : Fin 1024 → EReal) (B₂ : Fin 1024 → Fin 2048 → EReal) (b₂ : Fin 2048 → EReal)
    (D₁ : Fin 2048 → Fin 1024 → EReal) (d₁ : Fin 1024 → EReal) (D₂ : Fin 1024 → Fin 1024 → EReal) (d₂ : Fin 1024 → EReal) :
    Fin 1024 → EReal :=
  mlp (fun j => Scalar.select flag (mlp x A₁ a₁ A₂ a₂ j) (mlp x B₁ b₁ B₂ b₂ j)) D₁ d₁ D₂ d₂

/-- The network with the first layers FUSED (`C`, `c`: 2048 hidden numbers) and the two encoded rows BLENDED with the
    weight `w` and its complement `one − w`. -/
def blended (w one : EReal) (x : Fin 1024 → EReal)
    (C : Fin 1024 → Fin 2048 → EReal) (c : Fin 2048 → EReal)
    (A₂ : Fin 1024 → Fin 2048 → EReal) (a₂ : Fin 2048 → EReal) (B₂ : Fin 1024 → Fin 2048 → EReal) (b₂ : Fin 2048 → EReal)
    (D₁ : Fin 2048 → Fin 1024 → EReal) (d₁ : Fin 1024 → EReal) (D₂ : Fin 1024 → Fin 1024 → EReal) (d₂ : Fin 1024 → EReal) :
    Fin 1024 → EReal :=
  mlp (fun j => w * lin (fun k => relu (lin x C c) (lo k)) A₂ a₂ j
      + (one - w) * lin (fun k => relu (lin x C c) (hi k)) B₂ b₂ j) D₁ d₁ D₂ d₂

/-- The flag read as a number: the one-bit word widened to 32 bits and read as a signed integer. -/
def weight (flag : BitVec 1) : EReal := (((flag.setWidth 32).toInt : ℝ) : EReal)

/-- The blend is the selection: `1 · a + (1 − 1) · b = a`, `0 · a + (1 − 0) · b = b`, for all extended reals. -/
theorem blend_eq_select (flag : BitVec 1) (a b : EReal) :
    weight flag * a + (1 - weight flag) * b = Scalar.select flag a b := by
  rcases BitVec.eq_zero_or_eq_one flag with h | h
  · subst h
    have hw : weight 0#1 = 0 := by unfold weight; norm_num
    rw [hw, ValueIdx.select_zero, zero_mul, sub_zero, one_mul, zero_add]
  · subst h
    have hw : weight 1#1 = 1 := by unfold weight; norm_num
    have h11 : (1 : EReal) - 1 = 0 := by
      rw [show (1 : EReal) = ((1 : ℝ) : EReal) by norm_cast, ← EReal.coe_sub]; norm_num
    rw [hw, ValueIdx.select_one, one_mul, h11, zero_mul, add_zero]

/-- A fused first layer restricted to its first / last 1024 outputs is the first / second encoder's first layer. -/
theorem fused_lo (x : Fin 1024 → EReal) (C : Fin 1024 → Fin 2048 → EReal) (c : Fin 2048 → EReal)
    (A₁ : Fin 1024 → Fin 1024 → EReal) (a₁ : Fin 1024 → EReal)
    (hC : ∀ k j, C k (lo j) = A₁ k j) (hc : ∀ j, c (lo j) = a₁ j) :
    (fun k => relu (lin x C c) (lo k)) = relu (lin x A₁ a₁) := by
  funext j
  simp only [relu, lin, hC, hc]

theorem fused_hi (x : Fin 1024 → EReal) (C : Fin 1024 → Fin 2048 → EReal) (c : Fin 2048 → EReal)
    (B₁ : Fin 1024 → Fin 1024 → EReal) (b₁ : Fin 1024 → EReal)
    (hC : ∀ k j, C k (hi j) = B₁ k j) (hc : ∀ j, c (hi j) = b₁ j) :
    (fun k => relu (lin x C c) (hi k)) = relu (lin x B₁ b₁) := by
  funext j
  simp only [relu, lin, hC, hc]

/-- THE LAW: the blended network, its fused first layer the two first layers side by side and its weight the flag read
    as a number, is the routed network. -/
theorem blended_eq_routed (flag : BitVec 1) (x : Fin 1024 → EReal)
    (C : Fin 1024 → Fin 2048 → EReal) (c : Fin 2048 → EReal)
    (A₁ : Fin 1024 → Fin 1024 → EReal) (a₁ : Fin 1024 → EReal) (A₂ : Fin 1024 → Fin 2048 → EReal) (a₂ : Fin 2048 → EReal)
    (B₁ : Fin 1024 → Fin 1024 → EReal) (b₁ : Fin 1024 → EReal) (B₂ : Fin 1024 → Fin 2048 → EReal) (b₂ : Fin 2048 → EReal)
    (D₁ : Fin 2048 → Fin 1024 → EReal) (d₁ : Fin 1024 → EReal) (D₂ : Fin 1024 → Fin 1024 → EReal) (d₂ : Fin 1024 → EReal)
    (hA : ∀ k j, C k (lo j) = A₁ k j) (ha : ∀ j, c (lo j) = a₁ j)
    (hB : ∀ k j, C k (hi j) = B₁ k j) (hb : ∀ j, c (hi j) = b₁ j) :
    blended (weight flag) 1 x C c A₂ a₂ B₂ b₂ D₁ d₁ D₂ d₂ = routed flag x A₁ a₁ A₂ a₂ B₁ b₁ B₂ b₂ D₁ d₁ D₂ d₂ := by
  unfold blended routed
  rw [fused_lo x C c A₁ a₁ hA ha, fused_hi x C c B₁ b₁ hB hb]
  refine congrArg (fun e => mlp e D₁ d₁ D₂ d₂) (funext fun j => ?_)
  exact blend_eq_select flag _ _

/-! ## The result array -/

/-- Entry (r, q) of the result: entry `q` of the routed network applied to row `r` of the input matrix `a0`, the flag the
    comparison of the `r`-th language word `a1 r` with zero, the twelve parameter arrays read as matrices and vectors. -/
def resultAt (a0 : (⟨2, ![32768, 1024]⟩ : Shape).Idx → EReal) (a1 : (⟨1, ![32768]⟩ : Shape).Idx → BitVec 32)
    (a2 : (⟨2, ![1024, 1024]⟩ : Shape).Idx → EReal) (a3 : (⟨1, ![1024]⟩ : Shape).Idx → EReal)
    (a4 : (⟨2, ![1024, 2048]⟩ : Shape).Idx → EReal) (a5 : (⟨1, ![2048]⟩ : Shape).Idx → EReal)
    (a6 : (⟨2, ![1024, 1024]⟩ : Shape).Idx → EReal) (a7 : (⟨1, ![1024]⟩ : Shape).Idx → EReal)
    (a8 : (⟨2, ![1024, 2048]⟩ : Shape).Idx → EReal) (a9 : (⟨1, ![2048]⟩ : Shape).Idx → EReal)
    (a10 : (⟨2, ![2048, 1024]⟩ : Shape).Idx → EReal) (a11 : (⟨1, ![1024]⟩ : Shape).Idx → EReal)
    (a12 : (⟨2, ![1024, 1024]⟩ : Shape).Idx → EReal) (a13 : (⟨1, ![1024]⟩ : Shape).Idx → EReal)
    (r : Fin 32768) (q : Fin 1024) : EReal :=
  routed (IntOp.cmpi .eq (a1 (ValueIdx.ix1 r)) 0#32) (fun k => a0 (ValueIdx.ix2 r k))
    (fun k j => a2 (ValueIdx.ix2 k j)) (fun j => a3 (ValueIdx.ix1 j)) (fun k j => a4 (ValueIdx.ix2 k j)) (fun j => a5 (ValueIdx.ix1 j))
    (fun k j => a6 (ValueIdx.ix2 k j)) (fun j => a7 (ValueIdx.ix1 j)) (fun k j => a8 (ValueIdx.ix2 k j)) (fun j => a9 (ValueIdx.ix1 j))
    (fun k j => a10 (ValueIdx.ix2 k j)) (fun j => a11 (ValueIdx.ix1 j)) (fun k j => a12 (ValueIdx.ix2 k j)) (fun j => a13 (ValueIdx.ix1 j)) q

/-- THE RESULT ARRAY, [32768, 1024], as one function of the fourteen argument arrays, index by index. -/
def result (a0 : (⟨2, ![32768, 1024]⟩ : Shape).Idx → EReal) (a1 : (⟨1, ![32768]⟩ : Shape).Idx → BitVec 32)
    (a2 : (⟨2, ![1024, 1024]⟩ : Shape).Idx → EReal) (a3 : (⟨1, ![1024]⟩ : Shape).Idx → EReal)
    (a4 : (⟨2, ![1024, 2048]⟩ : Shape).Idx → EReal) (a5 : (⟨1, ![2048]⟩ : Shape).Idx → EReal)
    (a6 : (⟨2, ![1024, 1024]⟩ : Shape).Idx → EReal) (a7 : (⟨1, ![1024]⟩ : Shape).Idx → EReal)
    (a8 : (⟨2, ![1024, 2048]⟩ : Shape).Idx → EReal) (a9 : (⟨1, ![2048]⟩ : Shape).Idx → EReal)
    (a10 : (⟨2, ![2048, 1024]⟩ : Shape).Idx → EReal) (a11 : (⟨1, ![1024]⟩ : Shape).Idx → EReal)
    (a12 : (⟨2, ![1024, 1024]⟩ : Shape).Idx → EReal) (a13 : (⟨1, ![1024]⟩ : Shape).Idx → EReal) :
    (⟨2, ![32768, 1024]⟩ : Shape).Idx → EReal :=
  fun i => resultAt a0 a1 a2 a3 a4 a5 a6 a7 a8 a9 a10 a11 a12 a13 (i 0) (i 1)

end Cert.TwoExpert

end
-- ==== Proof.RefRow.lean ====
/-
  The reference program read row by row.

  Entry (r, q) of the reference's result depends on row r of the input matrix and entry r of the flag vector only: it is
  entry q of the routed two-expert network (TwoExpert.lean) applied to that row, with the flag the comparison of the
  row's language word with zero, and the twelve parameter arrays read as matrices and vectors. Each stage of the
  reference is read at an index through the generated one-operation lemmas; a product with a weight matrix is a sum
  over the contracted position, a bias is read at the column, the rectifier compares with the zero word.
-/
import proofs.«134580_j58274116272542_2_alg».proof.Proof.Gen.ReferenceIdeal.Read
import proofs.«134580_j58274116272542_2_alg».proof.Proof.TwoExpert
import Idealize.ShloMosaic.Lib.ValueIdx
import Idealize.ShloMosaic.PureOps.Ideal.Laws

noncomputable section

namespace Cert.ReferenceIdeal.RefRow

open Cert.ReferenceIdeal Cert.ReferenceIdeal.Read Cert.TwoExpert Idealize.ShloMosaic Idealize.ShloMosaic.ValueIdx

/-- Closes an equation between two indices given by their coordinates. -/
macro "coords" : tactic => `(tactic| (funext a; apply Fin.ext; fin_cases a <;> rfl))

variable (x0 : (⟨S32768x1024, .f32⟩ : BufTy).Contents (Elt Ideal)) (x1 : (⟨S32768, .i32⟩ : BufTy).Contents (Elt Ideal))
  (x2 : (⟨S1024x1024, .f32⟩ : BufTy).Contents (Elt Ideal)) (x3 : (⟨S1024, .f32⟩ : BufTy).Contents (Elt Ideal))
  (x4 : (⟨S1024x2048, .f32⟩ : BufTy).Contents (Elt Ideal)) (x5 : (⟨S2048, .f32⟩ : BufTy).Contents (Elt Ideal))
  (x6 : (⟨S1024x1024, .f32⟩ : BufTy).Contents (Elt Ideal)) (x7 : (⟨S1024, .f32⟩ : BufTy).Contents (Elt Ideal))
  (x8 : (⟨S1024x2048, .f32⟩ : BufTy).Contents (Elt Ideal)) (x9 : (⟨S2048, .f32⟩ : BufTy).Contents (Elt Ideal))
  (x10 : (⟨S2048x1024, .f32⟩ : BufTy).Contents (Elt Ideal)) (x11 : (⟨S1024, .f32⟩ : BufTy).Contents (Elt Ideal))
  (x12 : (⟨S1024x1024, .f32⟩ : BufTy).Contents (Elt Ideal)) (x13 : (⟨S1024, .f32⟩ : BufTy).Contents (Elt Ideal))

/-- The rectifier's second operand, the zero word, is the number zero. -/
theorem relu_word (a : EReal) : FloatOps.maximumf (F := Ideal) (φ := .f32) a (FloatOps.ofBits .f32 0#32) = max a 0 := by
  show max a (Ideal.ofBits .f32 0x00000000#32) = _
  rw [Ideal.ofBits_zero_f32]

/-- The first encoder's hidden row: rectified `x · A₁ + a₁`. -/
theorem hidden_de (r : Fin 32768) (j : Fin 1024) :
    val_main_v4 (F := Ideal) x0 x2 x3 (ix2 r j)
      = relu (lin (fun k => x0 (ix2 r k)) (fun k j => x2 (ix2 k j)) (fun j => x3 (ix1 j))) j := by
  have el : ∀ k, lidx_main_v0 (ix2 r j) k = ix2 r k := fun k => by coords
  have er : ∀ k, ridx_main_v0 (ix2 r j) k = ix2 k j := fun k => by coords
  have eb : idx_main_v1 (idx_main_v2 (ix2 r j)) = ix1 j := by coords
  rw [val_main_v4_apply, val_main_v3_apply, val_main_v0_apply, val_main_v2_apply, val_main_v1_apply,
    val_main_call0_v0_apply, val_main_call0_cst_apply]
  simp only [el, er, eb]
  exact relu_word _

/-- The first encoder's output row. -/
theorem encoded_de (r : Fin 32768) (j : Fin 2048) :
    val_main_v8 (F := Ideal) x0 x2 x3 x4 x5 (ix2 r j)
      = mlp (fun k => x0 (ix2 r k)) (fun k j => x2 (ix2 k j)) (fun j => x3 (ix1 j)) (fun k j => x4 (ix2 k j)) (fun j => x5 (ix1 j)) j := by
  have el : ∀ k, lidx_main_v5 (ix2 r j) k = ix2 r k := fun k => by coords
  have er : ∀ k, ridx_main_v5 (ix2 r j) k = ix2 k j := fun k => by coords
  have eb : idx_main_v6 (idx_main_v7 (ix2 r j)) = ix1 j := by coords
  rw [val_main_v8_apply, val_main_v5_apply, val_main_v7_apply, val_main_v6_apply]
  simp only [el, er, eb, hidden_de]
  rfl

/-- The second encoder's hidden row. -/
theorem hidden_nl (r : Fin 32768) (j : Fin 1024) :
    val_main_v13 (F := Ideal) x0 x6 x7 (ix2 r j)
      = relu (lin (fun k => x0 (ix2 r k)) (fun k j => x6 (ix2 k j)) (fun j => x7 (ix1 j))) j := by
  have el : ∀ k, lidx_main_v9 (ix2 r j) k = ix2 r k := fun k => by coords
  have er : ∀ k, ridx_main_v9 (ix2 r j) k = ix2 k j := fun k => by coords
  have eb : idx_main_v10 (idx_main_v11 (ix2 r j)) = ix1 j := by coords
  rw [val_main_v13_apply, val_main_v12_apply, val_main_v9_apply, val_main_v11_apply, val_main_v10_apply,
    val_main_call1_v0_apply, val_main_call1_cst_apply]
  simp only [el, er, eb]
  exact relu_word _

/-- The second encoder's output row. -/
theorem encoded_nl (r : Fin 32768) (j : Fin 2048) :
    val_main_v17 (F := Ideal) x0 x6 x7 x8 x9 (ix2 r j)
      = mlp (fun k => x0 (ix2 r k)) (fun k j => x6 (ix2 k j)) (fun j => x7 (ix1 j)) (fun k j => x8 (ix2 k j)) (fun j => x9 (ix1 j)) j := by
  have el : ∀ k, lidx_main_v14 (ix2 r j) k = ix2 r k := fun k => by coords
  have er : ∀ k, ridx_main_v14 (ix2 r j) k = ix2 k j := fun k => by coords
  have eb : idx_main_v15 (idx_main_v16 (ix2 r j)) = ix1 j := by coords
  rw [val_main_v17_apply, val_main_v14_apply, val_main_v16_apply, val_main_v15_apply]
  simp only [el, er, eb, hidden_nl]
  rfl

/-- The selected row: the first encoder's where the row's language word is zero, the second's elsewhere. -/
theorem selected (r : Fin 32768) (j : Fin 2048) :
    val_main_v21 (F := Ideal) x0 x1 x2 x3 x4 x5 x6 x7 x8 x9 (ix2 r j)
      = Scalar.select (IntOp.cmpi .eq (x1 (ix1 r)) 0#32)
          (mlp (fun k => x0 (ix2 r k)) (fun k j => x2 (ix2 k j)) (fun j => x3 (ix1 j)) (fun k j => x4 (ix2 k j)) (fun j => x5 (ix1 j)) j)
          (mlp (fun k => x0 (ix2 r k)) (fun k j => x6 (ix2 k j)) (fun j => x7 (ix1 j)) (fun k j => x8 (ix2 k j)) (fun j => x9 (ix1 j)) j) := by
  have ef : idx_main_v20 (idx_main_call2_v0 (ix2 r j)) = ix1 r := by coords
  rw [val_main_v21_apply, val_main_call2_v0_apply, val_main_v20_apply, val_main_v19_apply, val_main_v18_apply,
    val_main_c_apply, encoded_de, encoded_nl, ef]

/-- The decoder's hidden row. -/
theorem hidden_dec (r : Fin 32768) (j : Fin 1024) :
    val_main_v26 (F := Ideal) x0 x1 x2 x3 x4 x5 x6 x7 x8 x9 x10 x11 (ix2 r j)
      = relu (lin (fun j => Scalar.select (IntOp.cmpi .eq (x1 (ix1 r)) 0#32)
          (mlp (fun k => x0 (ix2 r k)) (fun k j => x2 (ix2 k j)) (fun j => x3 (ix1 j)) (fun k j => x4 (ix2 k j)) (fun j => x5 (ix1 j)) j)
          (mlp (fun k => x0 (ix2 r k)) (fun k j => x6 (ix2 k j)) (fun j => x7 (ix1 j)) (fun k j => x8 (ix2 k j)) (fun j => x9 (ix1 j)) j))
          (fun k j => x10 (ix2 k j)) (fun j => x11 (ix1 j))) j := by
  have el : ∀ k, lidx_main_v22 (ix2 r j) k = ix2 r k := fun k => by coords
  have er : ∀ k, ridx_main_v22 (ix2 r j) k = ix2 k j := fun k => by coords
  have eb : idx_main_v23 (idx_main_v24 (ix2 r j)) = ix1 j := by coords
  rw [val_main_v26_apply, val_main_v25_apply, val_main_v22_apply, val_main_v24_apply, val_main_v23_apply,
    val_main_call3_v0_apply, val_main_call3_cst_apply]
  simp only [el, er, eb, selected]
  exact relu_word _

/-- THE REFERENCE'S RESULT at row `r`, column `q`: the routed network of row `r`. -/
theorem result_apply (r : Fin 32768) (q : Fin 1024) :
    val_main_v30 (F := Ideal) x0 x1 x2 x3 x4 x5 x6 x7 x8 x9 x10 x11 x12 x13 (ix2 r q)
      = routed (IntOp.cmpi .eq (x1 (ix1 r)) 0#32) (fun k => x0 (ix2 r k))
          (fun k j => x2 (ix2 k j)) (fun j => x3 (ix1 j)) (fun k j => x4 (ix2 k j)) (fun j => x5 (ix1 j))
          (fun k j => x6 (ix2 k j)) (fun j => x7 (ix1 j)) (fun k j => x8 (ix2 k j)) (fun j => x9 (ix1 j))
          (fun k j => x10 (ix2 k j)) (fun j => x11 (ix1 j)) (fun k j => x12 (ix2 k j)) (fun j => x13 (ix1 j)) q := by
  have el : ∀ k, lidx_main_v27 (ix2 r q) k = ix2 r k := fun k => by coords
  have er : ∀ k, ridx_main_v27 (ix2 r q) k = ix2 k q := fun k => by coords
  have eb : idx_main_v28 (idx_main_v29 (ix2 r q)) = ix1 q := by coords
  rw [val_main_v30_apply, val_main_v27_apply, val_main_v29_apply, val_main_v28_apply]
  simp only [el, er, eb, hidden_dec]
  rfl

/-- THE REFERENCE'S RESULT is the result array of its arguments. -/
theorem result_eq :
    val_main_v30 (F := Ideal) x0 x1 x2 x3 x4 x5 x6 x7 x8 x9 x10 x11 x12 x13 = result x0 x1 x2 x3 x4 x5 x6 x7 x8 x9 x10 x11 x12 x13 := by
  funext i
  obtain ⟨r, q, rfl⟩ : ∃ (r : Fin 32768) (q : Fin 1024), i = ix2 r q := ⟨i 0, i 1, eq_ix2 i⟩
  exact result_apply x0 x1 x2 x3 x4 x5 x6 x7 x8 x9 x10 x11 x12 x13 r q

end Cert.ReferenceIdeal.RefRow

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.KernelRow.lean ====
/-
  The kernel body's stored value read row by row.

  The body stores one 512 × 1024 block computed from a 512 × 1024 block of the input matrix, a 512 × 1 block of language
  words and the eleven whole parameter arrays. Entry (p, q) of the stored block depends on row p of the input block and
  on the p-th language word only: it is entry q of the blended two-expert network (TwoExpert.lean) of that row. Each
  matrix product into a zero accumulator is a sum over the contracted position; a bias row is read at the column, the
  weight column at the row; the two halves of the fused hidden row are unit-stride slices at column offsets 0 and 1024;
  a change of float format is the identity on the extended reals.
-/
import proofs.«134580_j58274116272542_2_alg».proof.Proof.Gen.KernelIdeal.Skeleton
import proofs.«134580_j58274116272542_2_alg».proof.Proof.TwoExpert
import proofs.«134580_j58274116272542_2_alg».proof.Proof.LibMatmulZero
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.KernelRow

open Cert.KernelIdeal Cert.KernelIdeal.Gen Cert.TwoExpert Cert.LibMatmulZero Idealize.ShloMosaic Idealize.ShloMosaic.ValueIdx

/-! ## The body's three matrix products, each a sum over the one contracted position -/

/-- [512,1024] × [1024,2048]: the operands' coordinates at an output index and a contracted position. -/
theorem wide_l0 (i : S512x2048.Idx) (c : dot_S512x1024_S1024x2048_S512x2048_1_0_0_1_n_n.contr.Idx) :
    (dot_S512x1024_S1024x2048_S512x2048_1_0_0_1_n_n.lhsIdx i c 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
theorem wide_l1 (i : S512x2048.Idx) (c : dot_S512x1024_S1024x2048_S512x2048_1_0_0_1_n_n.contr.Idx) :
    (dot_S512x1024_S1024x2048_S512x2048_1_0_0_1_n_n.lhsIdx i c 1).val = (c ⟨0, by decide⟩).val :=
  dot_S512x1024_S1024x2048_S512x2048_1_0_0_1_n_n.lhsIdx_val_of_single rfl i c
theorem wide_r0 (i : S512x2048.Idx) (c : dot_S512x1024_S1024x2048_S512x2048_1_0_0_1_n_n.contr.Idx) :
    (dot_S512x1024_S1024x2048_S512x2048_1_0_0_1_n_n.rhsIdx i c 0).val = (c ⟨0, by decide⟩).val :=
  dot_S512x1024_S1024x2048_S512x2048_1_0_0_1_n_n.rhsIdx_val_of_single rfl i c
theorem wide_r1 (i : S512x2048.Idx) (c : dot_S512x1024_S1024x2048_S512x2048_1_0_0_1_n_n.contr.Idx) :
    (dot_S512x1024_S1024x2048_S512x2048_1_0_0_1_n_n.rhsIdx i c 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- [512,1024] × [1024,2048] into zero: entry (p, q) is the sum over k of A(p, k) · B(k, q). -/
theorem mm_1024_2048 (A : FVec Ideal S512x1024 .bf16) (B : FVec Ideal S1024x2048 .bf16) (p : Fin 512) (q : Fin 2048) :
    matmul dot_S512x1024_S1024x2048_S512x2048_1_0_0_1_n_n none A B (constant (F := Ideal) S512x2048 .f32 0x00000000#32) (ix2 p q)
      = ∑ k : Fin 1024, A (ix2 p k) * B (ix2 k q) :=
  matmul_zero_apply dot_S512x1024_S1024x2048_S512x2048_1_0_0_1_n_n 1024 rfl rfl A B (ix2 p q) (fun k => ix2 p k) (fun k => ix2 k q)
    (fun k a => by
      have hk := contrEquiv1_symm_val dot_S512x1024_S1024x2048_S512x2048_1_0_0_1_n_n 1024 rfl rfl k
      match a with
      | ⟨0, _⟩ => exact wide_l0 _ _
      | ⟨1, _⟩ => exact (wide_l1 _ _).trans hk)
    (fun k a => by
      have hk := contrEquiv1_symm_val dot_S512x1024_S1024x2048_S512x2048_1_0_0_1_n_n 1024 rfl rfl k
      match a with
      | ⟨0, _⟩ => exact (wide_r0 _ _).trans hk
      | ⟨1, _⟩ => exact wide_r1 _ _)

/-- [512,2048] × [2048,1024]: the operands' coordinates. -/
theorem tall_l0 (i : S512x1024.Idx) (c : dot_S512x2048_S2048x1024_S512x1024_1_0_0_1_n_n.contr.Idx) :
    (dot_S512x2048_S2048x1024_S512x1024_1_0_0_1_n_n.lhsIdx i c 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem tall_l1 (i : S512x1024.Idx) (c : dot_S512x2048_S2048x1024_S512x1024_1_0_0_1_n_n.contr.Idx) :
    (dot_S512x2048_S2048x1024_S512x1024_1_0_0_1_n_n.lhsIdx i c 1).val = (c ⟨0, by decide⟩).val :=
  dot_S512x2048_S2048x1024_S512x1024_1_0_0_1_n_n.lhsIdx_val_of_single rfl i c
theorem tall_r0 (i : S512x1024.Idx) (c : dot_S512x2048_S2048x1024_S512x1024_1_0_0_1_n_n.contr.Idx) :
    (dot_S512x2048_S2048x1024_S512x1024_1_0_0_1_n_n.rhsIdx i c 0).val = (c ⟨0, by decide⟩).val :=
  dot_S512x2048_S2048x1024_S512x1024_1_0_0_1_n_n.rhsIdx_val_of_single rfl i c
theorem tall_r1 (i : S512x1024.Idx) (c : dot_S512x2048_S2048x1024_S512x1024_1_0_0_1_n_n.contr.Idx) :
    (dot_S512x2048_S2048x1024_S512x1024_1_0_0_1_n_n.rhsIdx i c 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- [512,2048] × [2048,1024] into zero. -/
theorem mm_2048_1024 (A : FVec Ideal S512x2048 .bf16) (B : FVec Ideal S2048x1024 .bf16) (p : Fin 512) (q : Fin 1024) :
    matmul dot_S512x2048_S2048x1024_S512x1024_1_0_0_1_n_n none A B (constant (F := Ideal) S512x1024 .f32 0x00000000#32) (ix2 p q)
      = ∑ k : Fin 2048, A (ix2 p k) * B (ix2 k q) :=
  matmul_zero_apply dot_S512x2048_S2048x1024_S512x1024_1_0_0_1_n_n 2048 rfl rfl A B (ix2 p q) (fun k => ix2 p k) (fun k => ix2 k q)
    (fun k a => by
      have hk := contrEquiv1_symm_val dot_S512x2048_S2048x1024_S512x1024_1_0_0_1_n_n 2048 rfl rfl k
      match a with
      | ⟨0, _⟩ => exact tall_l0 _ _
      | ⟨1, _⟩ => exact (tall_l1 _ _).trans hk)
    (fun k a => by
      have hk := contrEquiv1_symm_val dot_S512x2048_S2048x1024_S512x1024_1_0_0_1_n_n 2048 rfl rfl k
      match a with
      | ⟨0, _⟩ => exact (tall_r0 _ _).trans hk
      | ⟨1, _⟩ => exact tall_r1 _ _)

/-- [512,1024] × [1024,1024]: the operands' coordinates. -/
theorem square_l0 (i : S512x1024.Idx) (c : dot_S512x1024_S1024x1024_S512x1024_1_0_0_1_n_n.contr.Idx) :
    (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem square_l1 (i : S512x1024.Idx) (c : dot_S512x1024_S1024x1024_S512x1024_1_0_0_1_n_n.contr.Idx) :
    (dot_S512x1024_S1024x1024_S512x1024_1_0_0_1_n_n.lhsIdx i c 1).val = (c ⟨0, by decide⟩).val :=
  dot_S512x1024_S1024x1024_S512x1024_1_0_0_1_n_n.lhsIdx_val_of_single rfl i c
theorem square_r0 (i : S512x1024.Idx) (c : dot_S512x1024_S1024x1024_S512x1024_1_0_0_1_n_n.contr.Idx) :
    (dot_S512x1024_S1024x1024_S512x1024_1_0_0_1_n_n.rhsIdx i c 0).val = (c ⟨0, by decide⟩).val :=
  dot_S512x1024_S1024x1024_S512x1024_1_0_0_1_n_n.rhsIdx_val_of_single rfl i c
theorem square_r1 (i : S512x1024.Idx) (c : dot_S512x1024_S1024x1024_S512x1024_1_0_0_1_n_n.contr.Idx) :
    (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- [512,1024] × [1024,1024] into zero. -/
theorem mm_1024_1024 (A : FVec Ideal S512x1024 .bf16) (B : FVec Ideal S1024x1024 .bf16) (p : Fin 512) (q : Fin 1024) :
    matmul dot_S512x1024_S1024x1024_S512x1024_1_0_0_1_n_n none A B (constant (F := Ideal) S512x1024 .f32 0x00000000#32) (ix2 p q)
      = ∑ k : Fin 1024, A (ix2 p k) * B (ix2 k q) :=
  matmul_zero_apply dot_S512x1024_S1024x1024_S512x1024_1_0_0_1_n_n 1024 rfl rfl A B (ix2 p q) (fun k => ix2 p k) (fun k => ix2 k q)
    (fun k a => by
      have hk := contrEquiv1_symm_val dot_S512x1024_S1024x1024_S512x1024_1_0_0_1_n_n 1024 rfl rfl k
      match a with
      | ⟨0, _⟩ => exact square_l0 _ _
      | ⟨1, _⟩ => exact (square_l1 _ _).trans hk)
    (fun k a => by
      have hk := contrEquiv1_symm_val dot_S512x1024_S1024x1024_S512x1024_1_0_0_1_n_n 1024 rfl rfl k
      match a with
      | ⟨0, _⟩ => exact (square_r0 _ _).trans hk
      | ⟨1, _⟩ => exact square_r1 _ _)

/-! ## Rows, columns and halves -/

/-- A bias row [1,2048] spread over 512 rows reads the row at the column. -/
theorem bias_2048 (b : Vec Ideal S1x2048 .f32) (p : Fin 512) (q : Fin 2048) :
    broadcastTo S512x2048 (shapeCast S1x2048 b shapeCasts_S1x2048_S1x2048) broadcasts_S1x2048_S512x2048 (ix2 p q)
      = b (ix2 0 q) := by
  rw [shapeCast_self]
  exact broadcastTo_apply b broadcasts_S1x2048_S512x2048 (ix2 p q) (ix2 0 q) (fun a => by
    match a with
    | ⟨0, _⟩ => show 0 = if (1 : Nat) = 1 then 0 else _; rw [if_pos rfl]
    | ⟨1, _⟩ => show q.val = if (2048 : Nat) = 1 then 0 else q.val; rw [if_neg (by decide)])

/-- A bias row [1,1024] spread over 512 rows reads the row at the column. -/
theorem bias_1024 (b : Vec Ideal S1x1024 .f32) (p : Fin 512) (q : Fin 1024) :
    broadcastTo S512x1024 (shapeCast S1x1024 b shapeCasts_S1x1024_S1x1024) broadcasts_S1x1024_S512x1024 (ix2 p q)
      = b (ix2 0 q) := by
  rw [shapeCast_self]
  exact broadcastTo_apply b broadcasts_S1x1024_S512x1024 (ix2 p q) (ix2 0 q) (fun a => by
    match a with
    | ⟨0, _⟩ => show 0 = if (1 : Nat) = 1 then 0 else _; rw [if_pos rfl]
    | ⟨1, _⟩ => show q.val = if (1024 : Nat) = 1 then 0 else q.val; rw [if_neg (by decide)])

/-- A column [512,1] spread over 2048 columns reads the column at the row. -/
theorem column_2048 (w : FVec Ideal S512x1 .f32) (p : Fin 512) (q : Fin 2048) :
    broadcastTo S512x2048 w broadcasts_S512x1_S512x2048 (ix2 p q) = w (ix2 p 0) :=
  broadcastTo_apply w broadcasts_S512x1_S512x2048 (ix2 p q) (ix2 p 0) (fun a => by
    match a with
    | ⟨0, _⟩ => show p.val = if (512 : Nat) = 1 then 0 else p.val; rw [if_neg (by decide)]
    | ⟨1, _⟩ => show 0 = if (1 : Nat) = 1 then 0 else _; rw [if_pos rfl])

/-- The first 1024 columns of a [512,2048] value. -/
theorem half_lo (v : FVec Ideal S512x2048 .bf16) (p : Fin 512) (q : Fin 1024) :
    extractStridedSlice S512x1024 ![0, 0] v slices_S512x2048_o0_0_S512x1024 (ix2 p q) = v (ix2 p (lo q)) :=
  extractStridedSlice_apply ![0, 0] v slices_S512x2048_o0_0_S512x1024 (ix2 p q) (ix2 p (lo q)) (fun a => by
    match a with
    | ⟨0, _⟩ => show p.val = 0 + p.val; omega
    | ⟨1, _⟩ => show q.val = 0 + q.val; omega)

/-- The last 1024 columns of a [512,2048] value. -/
theorem half_hi (v : FVec Ideal S512x2048 .bf16) (p : Fin 512) (q : Fin 1024) :
    extractStridedSlice S512x1024 ![0, 1024] v slices_S512x2048_o0_1024_S512x1024 (ix2 p q) = v (ix2 p (hi q)) :=
  extractStridedSlice_apply ![0, 1024] v slices_S512x2048_o0_1024_S512x1024 (ix2 p q) (ix2 p (hi q)) (fun a => by
    match a with
    | ⟨0, _⟩ => show p.val = 0 + p.val; omega
    | ⟨1, _⟩ => show q.val + 1024 = 1024 + q.val; omega)

/-! ## An affine layer of the body, at an index -/

/-- `A · W + b` with W [1024,2048] and b a [1,2048] row. -/
theorem affine_wide (A : FVec Ideal S512x1024 .bf16) (W : Vec Ideal S1024x2048 .bf16) (b : Vec Ideal S1x2048 .f32)
    (p : Fin 512) (q : Fin 2048) :
    addf (matmul dot_S512x1024_S1024x2048_S512x2048_1_0_0_1_n_n none A (shapeCast S1024x2048 W shapeCasts_S1024x2048_S1024x2048 : FVec Ideal S1024x2048 .bf16)
        (constant (F := Ideal) S512x2048 .f32 0x00000000#32))
      (broadcastTo S512x2048 (shapeCast S1x2048 b shapeCasts_S1x2048_S1x2048) broadcasts_S1x2048_S512x2048) (ix2 p q)
      = lin (fun k => A (ix2 p k)) (fun k j => W (ix2 k j)) (fun j => b (ix2 0 j)) q := by
  rw [addf_apply, mm_1024_2048, bias_2048, shapeCast_self]
  rfl

/-- `A · W + b` with W [2048,1024] and b a [1,1024] row. -/
theorem affine_tall (A : FVec Ideal S512x2048 .bf16) (W : Vec Ideal S2048x1024 .bf16) (b : Vec Ideal S1x1024 .f32)
    (p : Fin 512) (q : Fin 1024) :
    addf (matmul dot_S512x2048_S2048x1024_S512x1024_1_0_0_1_n_n none A (shapeCast S2048x1024 W shapeCasts_S2048x1024_S2048x1024 : FVec Ideal S2048x1024 .bf16)
        (constant (F := Ideal) S512x1024 .f32 0x00000000#32))
      (broadcastTo S512x1024 (shapeCast S1x1024 b shapeCasts_S1x1024_S1x1024) broadcasts_S1x1024_S512x1024) (ix2 p q)
      = lin (fun k => A (ix2 p k)) (fun k j => W (ix2 k j)) (fun j => b (ix2 0 j)) q := by
  rw [addf_apply, mm_2048_1024, bias_1024, shapeCast_self]
  rfl

/-- `A · W + b` with W [1024,1024] and b a [1,1024] row. -/
theorem affine_square (A : FVec Ideal S512x1024 .bf16) (W : Vec Ideal S1024x1024 .bf16) (b : Vec Ideal S1x1024 .f32)
    (p : Fin 512) (q : Fin 1024) :
    addf (matmul dot_S512x1024_S1024x1024_S512x1024_1_0_0_1_n_n none A (shapeCast S1024x1024 W shapeCasts_S1024x1024_S1024x1024 : FVec Ideal S1024x1024 .bf16)
        (constant (F := Ideal) S512x1024 .f32 0x00000000#32))
      (broadcastTo S512x1024 (shapeCast S1x1024 b shapeCasts_S1x1024_S1x1024) broadcasts_S1x1024_S512x1024) (ix2 p q)
      = lin (fun k => A (ix2 p k)) (fun k j => W (ix2 k j)) (fun j => b (ix2 0 j)) q := by
  rw [addf_apply, mm_1024_1024, bias_1024, shapeCast_self]
  rfl

/-! ## The payloads at an index -/

/-- The fused hidden row: rectified `x · C + c`, 2048 numbers. -/
theorem fused_hidden (v0 : Vec Ideal S512x1024 .f32) (v2 : Vec Ideal S1024x2048 .bf16) (v5 : Vec Ideal S1x2048 .f32)
    (p : Fin 512) (q : Fin 2048) :
    k0_pay2 (F := Ideal) v0 v2 v5 (ix2 p q)
      = relu (lin (fun k => v0 (ix2 p k)) (fun k j => v2 (ix2 k j)) (fun j => v5 (ix2 0 j))) q := by
  unfold k0_pay2
  rw [truncf_apply, maximumf_apply, affine_wide, broadcast_apply]
  show max _ (Ideal.ofBits .f32 0x00000000#32) = _
  rw [Ideal.ofBits_zero_f32]
  rfl

/-- The weight column: the language word compared with zero, the one-bit answer widened and read as a signed number. -/
theorem weight_column (v14 : Vec Ideal S512x1 .i32) (p : Fin 512) :
    k0_pay3 (F := Ideal) v14 (ix2 p (0 : Fin 1)) = weight (IntOp.cmpi .eq (v14 (ix2 p (0 : Fin 1))) 0#32) := by
  unfold k0_pay3
  rw [shapeCast_self]
  rfl

/-- The first encoder's branch, already weighted: the weight times the affine layer of the first half of the fused
    hidden row. -/
theorem first_branch (v0 : Vec Ideal S512x1024 .f32) (v2 : Vec Ideal S1024x2048 .bf16) (v5 : Vec Ideal S1x2048 .f32)
    (v14 : Vec Ideal S512x1 .i32) (v20 : Vec Ideal S1024x2048 .bf16) (v23 : Vec Ideal S1x2048 .f32) (p : Fin 512) (q : Fin 2048) :
    k0_pay4 (F := Ideal) v0 v2 v5 v14 v20 v23 (ix2 p q)
      = weight (IntOp.cmpi .eq (v14 (ix2 p (0 : Fin 1))) 0#32)
        * lin (fun k => relu (lin (fun k => v0 (ix2 p k)) (fun k j => v2 (ix2 k j)) (fun j => v5 (ix2 0 j))) (lo k))
            (fun k j => v20 (ix2 k j)) (fun j => v23 (ix2 0 j)) q := by
  unfold k0_pay4
  rw [truncf_apply, mulf_apply, column_2048, weight_column, affine_wide]
  simp only [half_lo, fused_hidden]

/-- The second encoder's branch: the affine layer of the second half of the fused hidden row. -/
theorem second_branch (v0 : Vec Ideal S512x1024 .f32) (v2 : Vec Ideal S1024x2048 .bf16) (v5 : Vec Ideal S1x2048 .f32)
    (v30 : Vec Ideal S1024x2048 .bf16) (v33 : Vec Ideal S1x2048 .f32) (p : Fin 512) (q : Fin 2048) :
    k0_pay5 (F := Ideal) v0 v2 v5 v30 v33 (ix2 p q)
      = lin (fun k => relu (lin (fun k => v0 (ix2 p k)) (fun k j => v2 (ix2 k j)) (fun j => v5 (ix2 0 j))) (hi k))
          (fun k j => v30 (ix2 k j)) (fun j => v33 (ix2 0 j)) q := by
  unfold k0_pay5
  rw [affine_wide]
  simp only [half_hi, fused_hidden]

/-- The decoder applied to the blend of the two branches, for any weight column `v19`, weighted first branch `v29`,
    second branch `v36` and unit `cst`. -/
theorem decoded (v19 : FVec Ideal S512x1 .f32) (v29 : FVec Ideal S512x2048 .bf16) (v36 : FVec Ideal S512x2048 .f32) (cst : Ideal .f32)
    (v43 : Vec Ideal S2048x1024 .bf16) (v46 : Vec Ideal S1x1024 .f32) (v53 : Vec Ideal S1024x1024 .bf16) (v56 : Vec Ideal S1x1024 .f32)
    (p : Fin 512) (q : Fin 1024) :
    k0_pay1 (F := Ideal) v19 v29 v36 cst v43 v46 v53 v56 (ix2 p q)
      = mlp (fun j => v29 (ix2 p j) + (cst - v19 (ix2 p (0 : Fin 1))) * v36 (ix2 p j))
          (fun k j => v43 (ix2 k j)) (fun j => v46 (ix2 0 j)) (fun k j => v53 (ix2 k j)) (fun j => v56 (ix2 0 j)) q := by
  unfold k0_pay1
  rw [affine_square]
  simp only [truncf_apply, maximumf_apply, affine_tall, broadcast_apply, Ideal.ofBits_def, Ideal.ofBits_zero_f32]
  simp only [addf_apply, truncf_apply, mulf_apply, column_2048, subf_apply, broadcast_apply]
  rfl

/-- WHAT THE BODY STORES at row `p`, column `q` of its block, from the twelve blocks it loads: the blended network of
    row `p` of the input block, its weight the `p`-th language word's comparison with zero. -/
theorem stored_row (x0 : Vec Ideal S512x1024 .f32) (x1 : Vec Ideal S512x1 .i32) (x2 : Vec Ideal S1024x2048 .bf16)
    (x3 : Vec Ideal S1x2048 .f32) (x4 : Vec Ideal S1024x2048 .bf16) (x5 : Vec Ideal S1x2048 .f32) (x6 : Vec Ideal S1024x2048 .bf16)
    (x7 : Vec Ideal S1x2048 .f32) (x8 : Vec Ideal S2048x1024 .bf16) (x9 : Vec Ideal S1x1024 .f32) (x10 : Vec Ideal S1024x1024 .bf16)
    (x11 : Vec Ideal S1x1024 .f32) (p : Fin 512) (q : Fin 1024) :
    k0_pay1 (F := Ideal) (k0_pay3 x1) (k0_pay4 x0 x2 x3 x1 x4 x5) (k0_pay5 x0 x2 x3 x6 x7) (Scalar.ofBits .f32 0x3F800000#32)
        x8 x9 x10 x11 (ix2 p q)
      = blended (weight (IntOp.cmpi .eq (x1 (ix2 p (0 : Fin 1))) 0#32)) 1 (fun k => x0 (ix2 p k))
          (fun k j => x2 (ix2 k j)) (fun j => x3 (ix2 0 j)) (fun k j => x4 (ix2 k j)) (fun j => x5 (ix2 0 j))
          (fun k j => x6 (ix2 k j)) (fun j => x7 (ix2 0 j)) (fun k j => x8 (ix2 k j)) (fun j => x9 (ix2 0 j))
          (fun k j => x10 (ix2 k j)) (fun j => x11 (ix2 0 j)) q := by
  rw [decoded]
  simp only [weight_column, first_branch, second_branch]
  have h1 : (Scalar.ofBits (F := Ideal) .f32 0x3F800000#32 : EReal) = 1 := Ideal.ofBits_one_f32
  rw [h1]
  rfl

end Cert.KernelIdeal.KernelRow

end
-- ==== Proof.HostSide.lean ====
/-
  The arrays the kernel's region finds, in terms of the program's arguments.

  Before the region the program re-lays its arguments: the language words become a column, the two encoders' first
  weight matrices are set side by side (columns 0–1023 the first, 1024–2047 the second) and their biases end to end,
  every bias becomes a one-row matrix, and the weight matrices change float format (the identity on the extended
  reals). Each staged array is read here at an index as an entry of an argument.
-/
import proofs.«134580_j58274116272542_2_alg».proof.Proof.Gen.KernelIdeal.Frame
import proofs.«134580_j58274116272542_2_alg».proof.Proof.TwoExpert
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.HostSide

open Cert.KernelIdeal Cert.KernelIdeal.Gen Cert.TwoExpert Idealize.ShloMosaic Idealize.ShloMosaic.TcCoe Idealize.SL.Sem
open Idealize.ShloMosaic.StableHlo Idealize.ShloMosaic.ValueIdx

/-! ## Layout operations at an index, over any arrays -/

/-- A vector viewed as a column: entry (r, 0) is entry r. -/
theorem column_of_vector {α : Type} (x : S32768.Idx → α) (r : Fin 32768) :
    shapeCast S32768x1 x shapeCasts_S32768_S32768x1 (ix2 r (0 : Fin 1)) = x (ix1 r) :=
  shapeCast_apply x shapeCasts_S32768_S32768x1 (ix2 r (0 : Fin 1)) (ix1 r) (by
    rw [Shape.rowMajor_val_one, Shape.rowMajor_val_two]
    show r.val = r.val * 1 + 0
    omega)

/-- Two [1024,1024] matrices side by side: a column among the first 1024 is the first matrix's. -/
theorem beside_lo {α : Type} (A B : S1024x1024.Idx → α) (k j : Fin 1024) :
    concatenate S1024x2048 1 [⟨S1024x1024, A⟩, ⟨S1024x1024, B⟩] concatenates_S1024x1024_S1024x1024_S1024x2048_d1 (ix2 k (lo j))
      = A (ix2 k j) :=
  concatenate_pair_apply_left 1 A B concatenates_S1024x1024_S1024x1024_S1024x2048_d1 (ix2 k (lo j)) rfl (ix2 k j)
    (fun b => by match b with | ⟨0, _⟩ => rfl | ⟨1, _⟩ => rfl)

/-- … and a column among the last 1024 is the second matrix's, 1024 columns back. -/
theorem beside_hi {α : Type} (A B : S1024x1024.Idx → α) (k j : Fin 1024) :
    concatenate S1024x2048 1 [⟨S1024x1024, A⟩, ⟨S1024x1024, B⟩] concatenates_S1024x1024_S1024x1024_S1024x2048_d1 (ix2 k (hi j))
      = B (ix2 k j) :=
  concatenate_pair_apply_right 1 A B concatenates_S1024x1024_S1024x1024_S1024x2048_d1 (ix2 k (hi j)) rfl rfl (ix2 k j)
    (fun b hb => by match b with | ⟨0, _⟩ => rfl | ⟨1, _⟩ => exact absurd rfl hb)
    rfl

/-- Two vectors of 1024 end to end, viewed as one row: positions among the first 1024 are the first vector's. -/
theorem row_of_joined_lo {α : Type} (a b : S1024.Idx → α) (j : Fin 1024) :
    shapeCast S1x2048 (concatenate S2048 0 [⟨S1024, a⟩, ⟨S1024, b⟩] concatenates_S1024_S1024_S2048_d0) shapeCasts_S2048_S1x2048
        (ix2 (0 : Fin 1) (lo j)) = a (ix1 j) := by
  rw [shapeCast_a_1a_apply]
  exact concatenate_pair_apply_left 0 a b concatenates_S1024_S1024_S2048_d0 (ix1 (lo j)) rfl (ix1 j)
    (fun b => by match b with | ⟨0, _⟩ => rfl)

/-- … and positions among the last 1024 are the second vector's. -/
theorem row_of_joined_hi {α : Type} (a b : S1024.Idx → α) (j : Fin 1024) :
    shapeCast S1x2048 (concatenate S2048 0 [⟨S1024, a⟩, ⟨S1024, b⟩] concatenates_S1024_S1024_S2048_d0) shapeCasts_S2048_S1x2048
        (ix2 (0 : Fin 1) (hi j)) = b (ix1 j) := by
  rw [shapeCast_a_1a_apply]
  exact concatenate_pair_apply_right 0 a b concatenates_S1024_S1024_S2048_d0 (ix1 (hi j)) rfl rfl (ix1 j)
    (fun b hb => by match b with | ⟨0, _⟩ => exact absurd rfl hb)
    rfl

/-! ## The staged arrays -/

variable (m : (ℓ : Loc nD τ sig) → Buf (Elt Ideal) ℓ) (c : Dev nD)

/-- The language words as a column. -/
theorem flags_at (r : Fin 32768) :
    V m c main_v0 (ix2 r (0 : Fin 1)) = m ((c : Thread nD τ).loc main_arg1) (ix1 r) := by
  have e : (V m c main_v0 : S32768x1.Idx → BitVec 32)
      = shapeCast S32768x1 (m ((c : Thread nD τ).loc main_arg1)) shapeCasts_S32768_S32768x1 := by
    dsimp only [Gen.V, Gen.hostOps0]; after_results; rfl
  exact (congrFun e _).trans (column_of_vector _ r)

/-- The two first-layer weight matrices side by side (a change of float format after, the identity here). -/
theorem staged_fused_weights :
    (V m c main_v2 : S1024x2048.Idx → EReal)
      = truncf (F := Ideal) .bf16 (concatenate S1024x2048 1 [⟨S1024x1024, m ((c : Thread nD τ).loc main_arg2)⟩,
          ⟨S1024x1024, m ((c : Thread nD τ).loc main_arg6)⟩] concatenates_S1024x1024_S1024x1024_S1024x2048_d1 : FVec Ideal S1024x2048 .f32)
          bitsLt_bf16_f32 := by
  dsimp only [Gen.V, Gen.hostOps0]; after_results

theorem fused_weights_lo (k j : Fin 1024) :
    V m c main_v2 (ix2 k (lo j)) = m ((c : Thread nD τ).loc main_arg2) (ix2 k j) :=
  by
  rw [staged_fused_weights m c, truncf_apply]
  exact beside_lo (m ((c : Thread nD τ).loc main_arg2)) (m ((c : Thread nD τ).loc main_arg6)) k j

theorem fused_weights_hi (k j : Fin 1024) :
    V m c main_v2 (ix2 k (hi j)) = m ((c : Thread nD τ).loc main_arg6) (ix2 k j) :=
  by
  rw [staged_fused_weights m c, truncf_apply]
  exact beside_hi (m ((c : Thread nD τ).loc main_arg2)) (m ((c : Thread nD τ).loc main_arg6)) k j

/-- The two first-layer biases end to end, as one row. -/
theorem staged_fused_bias :
    (V m c main_v4 : S1x2048.Idx → EReal)
      = shapeCast S1x2048 (concatenate S2048 0 [⟨S1024, m ((c : Thread nD τ).loc main_arg3)⟩,
          ⟨S1024, m ((c : Thread nD τ).loc main_arg7)⟩] concatenates_S1024_S1024_S2048_d0) shapeCasts_S2048_S1x2048 := by
  dsimp only [Gen.V, Gen.hostOps0]; after_results; rfl

theorem fused_bias_lo (j : Fin 1024) :
    V m c main_v4 (ix2 (0 : Fin 1) (lo j)) = m ((c : Thread nD τ).loc main_arg3) (ix1 j) :=
  by
  rw [staged_fused_bias m c]
  exact row_of_joined_lo (m ((c : Thread nD τ).loc main_arg3)) (m ((c : Thread nD τ).loc main_arg7)) j

theorem fused_bias_hi (j : Fin 1024) :
    V m c main_v4 (ix2 (0 : Fin 1) (hi j)) = m ((c : Thread nD τ).loc main_arg7) (ix1 j) :=
  by
  rw [staged_fused_bias m c]
  exact row_of_joined_hi (m ((c : Thread nD τ).loc main_arg3)) (m ((c : Thread nD τ).loc main_arg7)) j

/-- The four remaining weight matrices: a change of float format only. -/
theorem weights_de2 (k : Fin 1024) (j : Fin 2048) :
    V m c main_v5 (ix2 k j) = m ((c : Thread nD τ).loc main_arg4) (ix2 k j) := by
  have e : (V m c main_v5 : S1024x2048.Idx → EReal)
      = truncf (F := Ideal) .bf16 (m ((c : Thread nD τ).loc main_arg4) : FVec Ideal S1024x2048 .f32) bitsLt_bf16_f32 := by
    dsimp only [Gen.V, Gen.hostOps0]; after_results
  exact congrFun e _

theorem weights_nl2 (k : Fin 1024) (j : Fin 2048) :
    V m c main_v6 (ix2 k j) = m ((c : Thread nD τ).loc main_arg8) (ix2 k j) := by
  have e : (V m c main_v6 : S1024x2048.Idx → EReal)
      = truncf (F := Ideal) .bf16 (m ((c : Thread nD τ).loc main_arg8) : FVec Ideal S1024x2048 .f32) bitsLt_bf16_f32 := by
    dsimp only [Gen.V, Gen.hostOps0]; after_results
  exact congrFun e _

theorem weights_d1 (k : Fin 2048) (j : Fin 1024) :
    V m c main_v7 (ix2 k j) = m ((c : Thread nD τ).loc main_arg10) (ix2 k j) := by
  have e : (V m c main_v7 : S2048x1024.Idx → EReal)
      = truncf (F := Ideal) .bf16 (m ((c : Thread nD τ).loc main_arg10) : FVec Ideal S2048x1024 .f32) bitsLt_bf16_f32 := by
    dsimp only [Gen.V, Gen.hostOps0]; after_results
  exact congrFun e _

theorem weights_d2 (k : Fin 1024) (j : Fin 1024) :
    V m c main_v8 (ix2 k j) = m ((c : Thread nD τ).loc main_arg12) (ix2 k j) := by
  have e : (V m c main_v8 : S1024x1024.Idx → EReal)
      = truncf (F := Ideal) .bf16 (m ((c : Thread nD τ).loc main_arg12) : FVec Ideal S1024x1024 .f32) bitsLt_bf16_f32 := by
    dsimp only [Gen.V, Gen.hostOps0]; after_results
  exact congrFun e _

/-- The four remaining biases, each as one row. -/
theorem bias_de2 (j : Fin 2048) :
    V m c main_v9 (ix2 (0 : Fin 1) j) = m ((c : Thread nD τ).loc main_arg5) (ix1 j) := by
  have e : (V m c main_v9 : S1x2048.Idx → EReal)
      = shapeCast S1x2048 (m ((c : Thread nD τ).loc main_arg5)) shapeCasts_S2048_S1x2048 := by
    dsimp only [Gen.V, Gen.hostOps0]; after_results; rfl
  exact (congrFun e _).trans (shapeCast_a_1a_apply _ _ 0 j)

theorem bias_nl2 (j : Fin 2048) :
    V m c main_v10 (ix2 (0 : Fin 1) j) = m ((c : Thread nD τ).loc main_arg9) (ix1 j) := by
  have e : (V m c main_v10 : S1x2048.Idx → EReal)
      = shapeCast S1x2048 (m ((c : Thread nD τ).loc main_arg9)) shapeCasts_S2048_S1x2048 := by
    dsimp only [Gen.V, Gen.hostOps0]; after_results; rfl
  exact (congrFun e _).trans (shapeCast_a_1a_apply _ _ 0 j)

theorem bias_d1 (j : Fin 1024) :
    V m c main_v11 (ix2 (0 : Fin 1) j) = m ((c : Thread nD τ).loc main_arg11) (ix1 j) := by
  have e : (V m c main_v11 : S1x1024.Idx → EReal)
      = shapeCast S1x1024 (m ((c : Thread nD τ).loc main_arg11)) shapeCasts_S1024_S1x1024 := by
    dsimp only [Gen.V, Gen.hostOps0]; after_results; rfl
  exact (congrFun e _).trans (shapeCast_a_1a_apply _ _ 0 j)

theorem bias_d2 (j : Fin 1024) :
    V m c main_v12 (ix2 (0 : Fin 1) j) = m ((c : Thread nD τ).loc main_arg13) (ix1 j) := by
  have e : (V m c main_v12 : S1x1024.Idx → EReal)
      = shapeCast S1x1024 (m ((c : Thread nD τ).loc main_arg13)) shapeCasts_S1024_S1x1024 := by
    dsimp only [Gen.V, Gen.hostOps0]; after_results; rfl
  exact (congrFun e _).trans (shapeCast_a_1a_apply _ _ 0 j)

end Cert.KernelIdeal.HostSide

end
-- ==== Proof.Blocks.lean ====
/-
  From the blocks to the whole result array.

  The grid has 64 points; point t works on rows 512·t … 512·t + 511 of the input matrix and of the language column, on
  the eleven parameter arrays whole, and writes rows 512·t … 512·t + 511 of the result. So what point t writes back is
  block t of ONE function of the arguments — the result array of TwoExpert.lean: row p of the block is the blended
  network of row 512·t + p (KernelRow.lean), its fused first layer is the two first layers side by side and its weight
  the flag read as a number (HostSide.lean), and the blended network is the routed one (TwoExpert.lean). The 64 blocks
  cover the array (row r lies in block r / 512), so after the run the array IS that function.
-/
import proofs.«134580_j58274116272542_2_alg».proof.Proof.Gen.KernelIdeal.Value
import proofs.«134580_j58274116272542_2_alg».proof.Proof.KernelRow
import proofs.«134580_j58274116272542_2_alg».proof.Proof.HostSide
import proofs.«134580_j58274116272542_2_alg».proof.Proof.TwoExpert
import Idealize.ShloMosaic.Lib.Pipeline.Value
import Idealize.ShloMosaic.Lib.ValueIdx

noncomputable section

namespace Cert.KernelIdeal.Blocks

open Cert.KernelIdeal Cert.KernelIdeal.Gen Cert.TwoExpert Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zeros : (![0, 0] : Fin 2 → Nat) = fun _ => 0 := funext fun a => by fin_cases a <;> rfl

/-- The printed index maps, decided over the 64 points: the input rows, the language column and the result move with
    the point along axis 0; every parameter array's block is the array. -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_12.index t (0 : Fin 2) = t.val ∧ win0_12.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem points_lt (t : Fin cfg0.N) : t.val < 64 := lt_of_lt_of_eq t.isLt (show cfg0.N = 64 from N_0)

/-- Row `p` of point `t`'s block is row `512·t + p` of the array. -/
def rowOf (t : Fin cfg0.N) (p : Fin 512) : Fin 32768 :=
  ⟨t.val * 512 + p.val, by have := points_lt t; have := p.isLt; omega⟩

/-! ## Each window's block at a point, read off the arguments -/

theorem read_rows (c : Dev nD) (t : Fin cfg0.N) (p : Fin 512) (k : Fin 1024) :
    iblk m c 0 t (ix2 p k) = m ((c : Thread nD τ).loc main_arg0) (ix2 (rowOf t p) k) := by
  obtain ⟨⟨e0, e1⟩, -⟩ := index_maps t
  rw [← V_main_arg0 m c]
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

theorem read_flag (c : Dev nD) (t : Fin cfg0.N) (p : Fin 512) :
    iblk m c 1 t (ix2 p (0 : Fin 1)) = m ((c : Thread nD τ).loc main_arg1) (ix1 (rowOf t p)) := by
  obtain ⟨-, ⟨e0, e1⟩, -⟩ := index_maps t
  rw [← HostSide.flags_at m c (rowOf t p)]
  show V m c main_v0 (((cfg0.win 1).blk t).view.emb (ix2 p (0 : Fin 1))) = V m c main_v0 (ix2 (rowOf t p) (0 : Fin 1))
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 1 + 1 * 0 = 0; omega

/-! A parameter array's block is the array itself, at every point. -/

theorem read_whole2 (c : Dev nD) (t : Fin cfg0.N) (y : S1024x2048.Idx) : iblk m c 2 t y = V m c main_v2 y := by
  obtain ⟨-, -, -, ⟨e0, e1⟩, -⟩ := index_maps t
  show V m c main_v2 (((cfg0.win 2).blk t).view.emb y) = V m c main_v2 y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 2048 + 1 * (y 1).val = (y 1).val; omega

theorem read_whole3 (c : Dev nD) (t : Fin cfg0.N) (y : S1x2048.Idx) : iblk m c 3 t y = V m c main_v4 y := by
  obtain ⟨-, -, -, -, ⟨e0, e1⟩, -⟩ := index_maps t
  show V m c main_v4 (((cfg0.win 3).blk t).view.emb y) = V m c main_v4 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem read_whole4 (c : Dev nD) (t : Fin cfg0.N) (y : S1024x2048.Idx) : iblk m c 4 t y = V m c main_v5 y := by
  obtain ⟨-, -, -, -, -, ⟨e0, e1⟩, -⟩ := index_maps t
  show V m c main_v5 (((cfg0.win 4).blk t).view.emb y) = V m c main_v5 y
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 2048 + 1 * (y 1).val = (y 1).val; omega

theorem read_whole5 (c : Dev nD) (t : Fin cfg0.N) (y : S1x2048.Idx) : iblk m c 5 t y = V m c main_v9 y := by
  obtain ⟨-, -, -, -, -, -, ⟨e0, e1⟩, -⟩ := index_maps t
  show V m c main_v9 (((cfg0.win 5).blk t).view.emb y) = V m c main_v9 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 2048 + 1 * (y 1).val = (y 1).val; omega

theorem read_whole6 (c : Dev nD) (t : Fin cfg0.N) (y : S1024x2048.Idx) : iblk m c 6 t y = V m c main_v6 y := by
  obtain ⟨-, -, -, -, -, -, -, ⟨e0, e1⟩, -⟩ := index_maps t
  show V m c main_v6 (((cfg0.win 6).blk t).view.emb y) = V m c main_v6 y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 2048 + 1 * (y 1).val = (y 1).val; omega

theorem read_whole7 (c : Dev nD) (t : Fin cfg0.N) (y : S1x2048.Idx) : iblk m c 7 t y = V m c main_v10 y := by
  obtain ⟨-, -, -, -, -, -, -, -, ⟨e0, e1⟩, -⟩ := index_maps t
  show V m c main_v10 (((cfg0.win 7).blk t).view.emb y) = V m c main_v10 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem read_whole8 (c : Dev nD) (t : Fin cfg0.N) (y : S2048x1024.Idx) : iblk m c 8 t y = V m c main_v7 y := by
  obtain ⟨-, -, -, -, -, -, -, -, -, ⟨e0, e1⟩, -⟩ := index_maps t
  show V m c main_v7 (((cfg0.win 8).blk t).view.emb y) = V m c main_v7 y
  refine congrArg _ (funext fun a => Fin.ext ?_)
  match a with
  | ⟨0, _⟩ => show win0_8.index t (0 : Fin 2) * 2048 + 1 * (y 0).val = (y 0).val; omega
  | ⟨1, _⟩ => show win0_8.index t (1 : Fin 2) * 1024 + 1 * (y 1).val = (y 1).val; omega

theorem read_whole9 (c : Dev nD) (t : Fin cfg0.N) (y : S1x1024.Idx) : iblk m c 9 t y = V m c main_v11 y := by
  obtain ⟨-, -, -, -, -, -, -, -, -, -, ⟨e0, e1⟩, -⟩ := index_maps t
  show V m c main_v11 (((cfg0.win 9).blk t).view.emb y) = V m c main_v11 y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 1024 + 1 * (y 1).val = (y 1).val; omega

theorem read_whole10 (c : Dev nD) (t : Fin cfg0.N) (y : S1024x1024.Idx) : iblk m c 10 t y = V m c main_v8 y := by
  obtain ⟨-, -, -, -, -, -, -, -, -, -, -, ⟨e0, e1⟩, -⟩ := index_maps t
  show V m c main_v8 (((cfg0.win 10).blk t).view.emb y) = V m c main_v8 y
  refine congrArg _ (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

theorem read_whole11 (c : Dev nD) (t : Fin cfg0.N) (y : S1x1024.Idx) : iblk m c 11 t y = V m c main_v12 y := by
  obtain ⟨-, -, -, -, -, -, -, -, -, -, -, -, e0, e1⟩ := index_maps t
  show V m c main_v12 (((cfg0.win 11).blk t).view.emb y) = V m c main_v12 y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 1024 + 1 * (y 1).val = (y 1).val; omega

/-! ## What a point writes back -/

/-- Entry (p, q) of what point `t` stores is entry (512·t + p, q) of the result array of the arguments. -/
theorem stored_at (c : Dev nD) (t : Fin cfg0.N) (p : Fin 512) (q : Fin 1024) :
    k0_pay1 (F := Ideal) (k0_pay3 (iblk m c 1 t)) (k0_pay4 (iblk m c 0 t) (iblk m c 2 t) (iblk m c 3 t) (iblk m c 1 t) (iblk m c 4 t) (iblk m c 5 t))
        (k0_pay5 (iblk m c 0 t) (iblk m c 2 t) (iblk m c 3 t) (iblk m c 6 t) (iblk m c 7 t)) (Scalar.ofBits .f32 0x3F800000#32)
        (iblk m c 8 t) (iblk m c 9 t) (iblk m c 10 t) (iblk m c 11 t) (ix2 p q)
      = resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (rowOf t p) q := by
  refine (KernelRow.stored_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p q).trans ?_
  simp only [read_rows, read_flag, read_whole2, read_whole3, read_whole4, read_whole5, read_whole6, read_whole7, read_whole8,
    read_whole9, read_whole10, read_whole11]
  have w4 : (fun (k : Fin 1024) (j : Fin 2048) => V m c main_v5 (ix2 k j)) = fun k j => m ((c : Thread nD τ).loc main_arg4) (ix2 k j) :=
    funext fun k => funext fun j => HostSide.weights_de2 m c k j
  have w5 : (fun (j : Fin 2048) => V m c main_v9 (ix2 (0 : Fin 1) j)) = fun j => m ((c : Thread nD τ).loc main_arg5) (ix1 j) :=
    funext fun j => HostSide.bias_de2 m c j
  have w6 : (fun (k : Fin 1024) (j : Fin 2048) => V m c main_v6 (ix2 k j)) = fun k j => m ((c : Thread nD τ).loc main_arg8) (ix2 k j) :=
    funext fun k => funext fun j => HostSide.weights_nl2 m c k j
  have w7 : (fun (j : Fin 2048) => V m c main_v10 (ix2 (0 : Fin 1) j)) = fun j => m ((c : Thread nD τ).loc main_arg9) (ix1 j) :=
    funext fun j => HostSide.bias_nl2 m c j
  have w8 : (fun (k : Fin 2048) (j : Fin 1024) => V m c main_v7 (ix2 k j)) = fun k j => m ((c : Thread nD τ).loc main_arg10) (ix2 k j) :=
    funext fun k => funext fun j => HostSide.weights_d1 m c k j
  have w9 : (fun (j : Fin 1024) => V m c main_v11 (ix2 (0 : Fin 1) j)) = fun j => m ((c : Thread nD τ).loc main_arg11) (ix1 j) :=
    funext fun j => HostSide.bias_d1 m c j
  have w10 : (fun (k : Fin 1024) (j : Fin 1024) => V m c main_v8 (ix2 k j)) = fun k j => m ((c : Thread nD τ).loc main_arg12) (ix2 k j) :=
    funext fun k => funext fun j => HostSide.weights_d2 m c k j
  have w11 : (fun (j : Fin 1024) => V m c main_v12 (ix2 (0 : Fin 1) j)) = fun j => m ((c : Thread nD τ).loc main_arg13) (ix1 j) :=
    funext fun j => HostSide.bias_d2 m c j
  rw [w4, w5, w6, w7, w8, w9, w10, w11]
  unfold resultAt
  exact congrFun (blended_eq_routed _ _ _ _ _ _ _ _ _ _ _ _ _ _ _ _
    (HostSide.fused_weights_lo m c) (HostSide.fused_bias_lo m c) (HostSide.fused_weights_hi m c) (HostSide.fused_bias_hi m c)) q

/-- WHAT POINT `t` WRITES BACK is block `t` of the result array of the arguments. -/
theorem flushed_eq (c : Dev nD) (t : Fin cfg0.N) :
    (dats m 0 c).flushed 12 t = ((cfg0.win 12).blk t).view.read (Elt Ideal)
      (result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13))) := by
  rw [Value.flushed12]
  unfold out0_12
  rw [View.canon_unit_zero zeros]
  simp only [View.ld_unit_zero (S := S512x1024) zeros, View.ld_unit_zero (S := S1024x2048) zeros, View.ld_unit_zero (S := S1x2048) zeros,
    View.ld_unit_zero (S := S512x1) zeros, View.ld_unit_zero (S := S2048x1024) zeros, View.ld_unit_zero (S := S1x1024) zeros,
    View.ld_unit_zero (S := S1024x1024) zeros]
  refine funext fun (y : S512x1024.Idx) => ?_
  obtain ⟨p, q, rfl⟩ : ∃ (p : Fin 512) (q : Fin 1024), y = ix2 p q := ⟨y 0, y 1, eq_ix2 y⟩
  obtain ⟨-, -, ⟨e0, e1⟩, -⟩ := index_maps t
  have hemb : ((cfg0.win 12).blk t).view.emb (ix2 p q) = ix2 (rowOf t p) q := funext fun a => Fin.ext (by
    match a with
    | ⟨0, _⟩ => show win0_12.index t (0 : Fin 2) * 512 + 1 * p.val = t.val * 512 + p.val; omega
    | ⟨1, _⟩ => show win0_12.index t (1 : Fin 2) * 1024 + 1 * q.val = q.val; omega)
  refine (stored_at m c t p q).trans ?_
  show _ = result _ _ _ _ _ _ _ _ _ _ _ _ _ _ (((cfg0.win 12).blk t).view.emb (ix2 p q))
  rw [hemb]
  rfl

/-- An index of the array is in point `t`'s block iff each coordinate is in the block's range on its axis. -/
theorem mem_block (t : Fin cfg0.N) (i : S32768x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v13).slice (win0_12.rect t)).set ↔ _
  rw [View.set_slice_whole, Rect.mem_set_unit]
  exact Iff.rfl

/-- Every index of the array is in some point's block: row `r` is in block `r / 512`. -/
theorem covered (i : S32768x1024.Idx) :
    ∃ t : Fin cfg0.N, (cfg0.win 12).flush t = true ∧ i ∈ ((cfg0.win 12).blk t).view.set := by
  have hi0 : (i 0).val < 32768 := (i 0).isLt
  have hi1 : (i 1).val < 1024 := (i 1).isLt
  have ht : (i 0).val / 512 < cfg0.N := by rw [show cfg0.N = 64 from N_0]; omega
  obtain ⟨-, -, ⟨e0, e1⟩, -⟩ := index_maps ⟨(i 0).val / 512, ht⟩
  have e0' : win0_12.index ⟨(i 0).val / 512, ht⟩ (0 : Fin 2) = (i 0).val / 512 := e0
  refine ⟨⟨(i 0).val / 512, ht⟩, flush0_12 _, ?_⟩
  rw [mem_block]
  intro a
  match a with
  | ⟨0, _⟩ =>
    show win0_12.index ⟨(i 0).val / 512, ht⟩ (0 : Fin 2) * 512 ≤ (i 0).val
      ∧ (i 0).val < win0_12.index ⟨(i 0).val / 512, ht⟩ (0 : Fin 2) * 512 + 512
    omega
  | ⟨1, _⟩ =>
    show win0_12.index ⟨(i 0).val / 512, ht⟩ (1 : Fin 2) * 1024 ≤ (i 1).val
      ∧ (i 1).val < win0_12.index ⟨(i 0).val / 512, ht⟩ (1 : Fin 2) * 1024 + 1024
    omega

/-- THE ARRAY after the run is the result array of the arguments. -/
theorem final (c : Dev nD) :
    (dats m 0 c).arrAt 12 cfg0.N
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) :=
  (dats m 0 c).arrAt_eq_of_cover 12 _ (fun t _ => flushed_eq m c t) covered

/-- The kernel's run, re-posted: the result buffer ends at the result array of the arguments, the arguments unchanged. -/
theorem run : θ_run defs (onTc (τ := τ) (main (F := Ideal))) ⟨m, fun _ => 0, ρ⟩ fun r => ∀ c : Dev nD,
      r.2.mem ((c : Thread nD τ).loc main_v13)
        = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Blocks

end
-- ==== Proof.lean ====
/-
  The kernel and its reference compute the same two-expert feed-forward network, row by row.

  Each of the 32768 rows of the input goes through one of two encoders (an affine layer to 1024 numbers, a rectifier, an
  affine layer to 2048 numbers), chosen by whether the row's language word is zero, and then through a decoder of the
  same form back to 1024 numbers. The reference evaluates both encoders on every row and SELECTS; the kernel, 512 rows at
  a grid point, fuses the two first layers into one affine layer whose weight matrix is the two matrices side by side,
  and BLENDS the two encoded rows with the weight `w ∈ {1, 0}` read off the comparison and its complement `1 − w`.

  On the extended reals `1 · a + (1 − 1) · b = a` and `0 · a + (1 − 0) · b = b` for all `a`, `b` (there `0 · b = 0`
  even for an infinite `b`), so the two programs end with equal results whatever the entries: the precondition is not
  used by the value claim. A matrix product into a zero accumulator and the host's product are the same sum over the
  contracted position, and a change of float format is the identity.

  * TwoExpert.lean — the network on one row, both arrangements, the law joining them, and the result array as one
    function of the fourteen arguments;
  * RefRow.lean — the reference's result IS that function (its generated run read one operation at a time);
  * KernelRow.lean — entry (p, q) of the block the kernel's body stores is the blended network of row p of its input block;
  * HostSide.lean — the arrays the region finds (the fused weights and biases, the language column) read off the arguments;
  * Blocks.lean — point t writes rows 512·t … 512·t + 511 of that function, the 64 blocks cover the array, so the kernel's
    result buffer ends at it.
  The three frame claims are the generated frame runs (the reference's its generated run with the result dropped); the
  idealization rewrote no operation, so nothing is owed for it.
-/
import proofs.«134580_j58274116272542_2_alg».proof.Defs
import proofs.«134580_j58274116272542_2_alg».proof.Proof.Gen.Kernel
import proofs.«134580_j58274116272542_2_alg».proof.Proof.Gen.Kernel.Skeleton
import proofs.«134580_j58274116272542_2_alg».proof.Proof.Gen.Kernel.Launch
import proofs.«134580_j58274116272542_2_alg».proof.Proof.Gen.Kernel.Points
import proofs.«134580_j58274116272542_2_alg».proof.Proof.Gen.Kernel.Frame
import proofs.«134580_j58274116272542_2_alg».proof.Proof.Gen.KernelIdeal
import proofs.«134580_j58274116272542_2_alg».proof.Proof.Gen.KernelIdeal.Skeleton
import proofs.«134580_j58274116272542_2_alg».proof.Proof.Gen.KernelIdeal.Launch
import proofs.«134580_j58274116272542_2_alg».proof.Proof.Gen.KernelIdeal.Points
import proofs.«134580_j58274116272542_2_alg».proof.Proof.Gen.KernelIdeal.Frame
import proofs.«134580_j58274116272542_2_alg».proof.Proof.Gen.ReferenceIdeal
import proofs.«134580_j58274116272542_2_alg».proof.Proof.Gen.Pre_finite_inputs
import proofs.«134580_j58274116272542_2_alg».proof.Proof.Gen.KernelIdeal.Value
import proofs.«134580_j58274116272542_2_alg».proof.Proof.Gen.ReferenceIdeal.Run
import proofs.«134580_j58274116272542_2_alg».proof.Proof.Gen.ReferenceIdeal.Read
import proofs.«134580_j58274116272542_2_alg».proof.Proof.TwoExpert
import proofs.«134580_j58274116272542_2_alg».proof.Proof.RefRow
import proofs.«134580_j58274116272542_2_alg».proof.Proof.Blocks
import Idealize.ShloMosaic.Adequacy
import Idealize.ShloMosaic.Init

noncomputable section

namespace Cert.Proof

open Idealize.ShloMosaic Idealize.SL.Sem

/-- The word-level kernel runs and leaves its arguments: the generated frame run. -/
theorem frame_kernel : Cert.frame_Kernel := fun m ρ _ => Cert.Kernel.Gen.frame m ρ

/-- The same at the extended reals. -/
theorem frame_ideal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end at the result array of those arguments. -/
theorem algebraic : Cert.algebraic_KernelIdeal_ReferenceIdeal := by
  intro m ρ m' ρ' _ hagree
  refine ⟨fun c => Cert.TwoExpert.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v30_eq, Cert.ReferenceIdeal.RefRow.result_eq,
    h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
